-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1200000 32) (main_arg2 : IVec S100000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S5000x64 : Shape := ⟨2, ![5000, 64]⟩
abbrev S1300000x64 : Shape := ⟨2, ![1300000, 64]⟩
abbrev S10000x64 : Shape := ⟨2, ![10000, 64]⟩
abbrev S10000x1 : Shape := ⟨2, ![10000, 1]⟩
abbrev S1x64 : Shape := ⟨2, ![1, 64]⟩
abbrev S256x64 : Shape := ⟨2, ![256, 64]⟩
abbrev S100000x1 : Shape := ⟨2, ![100000, 1]⟩

abbrev nBuf : Space → Nat
  | .hbm => 60
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S100000, .i32⟩
  | .hbm, ⟨6, _⟩ => ⟨S1x1200000, .i32⟩
  | .hbm, ⟨7, _⟩ => ⟨S1200000, .i32⟩
  | .hbm, ⟨8, _⟩ => ⟨S1300000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S_, .f32⟩
  | .hbm, ⟨13, _⟩ => ⟨S1300000, .f32⟩
  | .hbm, ⟨14, _⟩ => ⟨S_, .f32⟩
  | .hbm, ⟨15, _⟩ => ⟨S100000, .f32⟩
  | .hbm, ⟨16, _⟩ => ⟨S1300000x1, .i32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1300000, .i32⟩
  | .hbm, ⟨21, _⟩ => ⟨S1300000, .i1⟩
  | .hbm, ⟨22, _⟩ => ⟨S_, .i32⟩
  | .hbm, ⟨23, _⟩ => ⟨S1300000, .i32⟩
  | .hbm, ⟨24, _⟩ => ⟨S1300000, .i32⟩
  | .hbm, ⟨25, _⟩ => ⟨S1300000, .i32⟩
  | .hbm, ⟨26, _⟩ => ⟨S1300000x1, .i32⟩
  | .hbm, ⟨27, _⟩ => ⟨S1300000, .f32⟩
  | .hbm, ⟨28, _⟩ => ⟨S_, .i32⟩
  | .hbm, ⟨29, _⟩ => ⟨S1300000, .i32⟩
  | .hbm, ⟨30, _⟩ => ⟨S1300000, .i1⟩
  | .hbm, ⟨31, _⟩ => ⟨S_, .i32⟩
  | .hbm, ⟨32, _⟩ => ⟨S1300000, .i32⟩
  | .hbm, ⟨33, _⟩ => ⟨S1300000, .i32⟩
  | .hbm, ⟨34, _⟩ => ⟨S1300000, .i32⟩
  | .hbm, ⟨35, _⟩ => ⟨S1300000x1, .i32⟩
  | .hbm, ⟨36, _⟩ => ⟨S1300000, .f32⟩
  | .hbm, ⟨37, _⟩ => ⟨S1300000, .f32⟩
  | .hbm, ⟨38, _⟩ => ⟨S100000x64, .f32⟩
  | .hbm, ⟨39, _⟩ => ⟨S_, .i32⟩
  | .hbm, ⟨40, _⟩ => ⟨S1300000, .i32⟩
  | .hbm, ⟨41, _⟩ => ⟨S1300000, .i1⟩
  | .hbm, ⟨42, _⟩ => ⟨S_, .i32⟩
  | .hbm, ⟨43, _⟩ => ⟨S1300000, .i32⟩
  | .hbm, ⟨44, _⟩ => ⟨S1300000, .i32⟩
  | .hbm, ⟨45, _⟩ => ⟨S1300000, .i32⟩
  | .hbm, ⟨46, _⟩ => ⟨S1300000x1, .i32⟩
  | .hbm, ⟨47, _⟩ => ⟨S1300000x64, .f32⟩
  | .hbm, ⟨48, _⟩ => ⟨S1300000x1, .f32⟩
  | .hbm, ⟨49, _⟩ => ⟨S1300000x64, .f32⟩
  | .hbm, ⟨50, _⟩ => ⟨S_, .f32⟩
  | .hbm, ⟨51, _⟩ => ⟨S100000x64, .f32⟩
  | .hbm, ⟨52, _⟩ => ⟨S1300000x1, .i32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S_, .f32⟩
  | .hbm, ⟨57, _⟩ => ⟨S256x64, .f32⟩
  | .hbm, ⟨58, _⟩ => ⟨S100000x1, .i32⟩
  | .hbm, ⟨59, _⟩ => ⟨S256x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![130], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1300000_S1300000x1 : S1300000.ShapeCasts S1300000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S256x64 : S_.BroadcastsInDim S256x64 (![] : Fin 0 → Fin S256x64.rank)
  bcast_S100000_S100000x1_0 : S100000.BroadcastsInDim S100000x1 (![0] : Fin 1 → Fin S100000x1.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S5000x64_S64x64_S5000x64_1_0_0_1_n_n_wf : DotDims.WF S5000x64 S64x64 S5000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S256x64_S100000x1_S100000x64_1_0_0_1_wf : ScatterDims.WF S256x64 S100000x1 S100000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1300000x64.size a
  hwx1_0 : ∀ i : grid1.Coords, EltTy.bits .f32 = 32 ∨ (Rect.block (s := S1300000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1300000x1.size a
  hwx1_1 : ∀ i : grid1.Coords, EltTy.bits .f32 = 32 ∨ (Rect.block (s := S1300000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1300000x64.size a
  hwx1_2 : ∀ i : grid1.Coords, EltTy.bits .f32 = 32 ∨ (Rect.block (s := S1300000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S100000 : Shape := ⟨1, ![100000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S1x64 : Shape := ⟨2, ![1, 64]⟩
abbrev S256x64 : Shape := ⟨2, ![256, 64]⟩
abbrev S100000x1 : Shape := ⟨2, ![100000, 1]⟩

abbrev nBuf : Space → Nat
  | .hbm => 65
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S100000, .i32⟩
  | .hbm, ⟨6, _⟩ => ⟨S1x1200000, .i32⟩
  | .hbm, ⟨7, _⟩ => ⟨S1200000, .i32⟩
  | .hbm, ⟨8, _⟩ => ⟨S1300000, .i32⟩
  | .hbm, ⟨9, _⟩ => ⟨S1x1200000, .i32⟩
  | .hbm, ⟨10, _⟩ => ⟨S1200000, .i32⟩
  | .hbm, ⟨11, _⟩ => ⟨S1300000, .i32⟩
  | .hbm, ⟨12, _⟩ => ⟨S_, .f32⟩
  | .hbm, ⟨13, _⟩ => ⟨S1300000, .f32⟩
  | .hbm, ⟨14, _⟩ => ⟨S_, .f32⟩
  | .hbm, ⟨15, _⟩ => ⟨S100000, .f32⟩
  | .hbm, ⟨16, _⟩ => ⟨S1300000x1, .i32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1300000, .i32⟩
  | .hbm, ⟨21, _⟩ => ⟨S1300000, .i1⟩
  | .hbm, ⟨22, _⟩ => ⟨S_, .i32⟩
  | .hbm, ⟨23, _⟩ => ⟨S1300000, .i32⟩
  | .hbm, ⟨24, _⟩ => ⟨S1300000, .i32⟩
  | .hbm, ⟨25, _⟩ => ⟨S1300000, .i32⟩
  | .hbm, ⟨26, _⟩ => ⟨S1300000x1, .i32⟩
  | .hbm, ⟨27, _⟩ => ⟨S1300000, .f32⟩
  | .hbm, ⟨28, _⟩ => ⟨S_, .i32⟩
  | .hbm, ⟨29, _⟩ => ⟨S1300000, .i32⟩
  | .hbm, ⟨30, _⟩ => ⟨S1300000, .i1⟩
  | .hbm, ⟨31, _⟩ => ⟨S_, .i32⟩
  | .hbm, ⟨32, _⟩ => ⟨S1300000, .i32⟩
  | .hbm, ⟨33, _⟩ => ⟨S1300000, .i32⟩
  | .hbm, ⟨34, _⟩ => ⟨S1300000, .i32⟩
  | .hbm, ⟨35, _⟩ => ⟨S1300000x1, .i32⟩
  | .hbm, ⟨36, _⟩ => ⟨S1300000, .f32⟩
  | .hbm, ⟨37, _⟩ => ⟨S1300000, .f32⟩
  | .hbm, ⟨38, _⟩ => ⟨S100000x64, .f32⟩
  | .hbm, ⟨39, _⟩ => ⟨S1300000x1, .f32⟩
  | .hbm, ⟨40, _⟩ => ⟨S_, .i32⟩
  | .hbm, ⟨41, _⟩ => ⟨S1300000, .i32⟩
  | .hbm, ⟨42, _⟩ => ⟨S1300000, .i1⟩
  | .hbm, ⟨43, _⟩ => ⟨S_, .i32⟩
  | .hbm, ⟨44, _⟩ => ⟨S1300000, .i32⟩
  | .hbm, ⟨45, _⟩ => ⟨S1300000, .i32⟩
  | .hbm, ⟨46, _⟩ => ⟨S1300000, .i32⟩
  | .hbm, ⟨47, _⟩ => ⟨S1300000x1, .i32⟩
  | .hbm, ⟨48, _⟩ => ⟨S1300000x64, .f32⟩
  | .hbm, ⟨49, _⟩ => ⟨S1300000x64, .f32⟩
  | .hbm, ⟨50, _⟩ => ⟨S1300000x64, .f32⟩
  | .hbm, ⟨51, _⟩ => ⟨S_, .f32⟩
  | .hbm, ⟨52, _⟩ => ⟨S100000x64, .f32⟩
  | .hbm, ⟨53, _⟩ => ⟨S1300000x1, .i32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S256x64, .f32⟩
  | .hbm, ⟨63, _⟩ => ⟨S100000x1, .i32⟩
  | .hbm, ⟨64, _⟩ => ⟨S256x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_cst : Ref sig .tc := ⟨.hbm, 58, rfl⟩
abbrev main_call0_v0 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  dot_S100000x64_S64x64_S100000x64_1_0_0_1_n_n_wf : DotDims.WF S100000x64 S64x64 S100000x64 [1] [0] [0] [1] [] []
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S256x64_S100000x1_S100000x64_1_0_0_1_wf : ScatterDims.WF S256x64 S100000x1 S100000x64 [1] [0] [0] 1

variable [Facts₀]

def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf

class Facts : Prop extends Facts₀ where

variable [Facts]
-- ==== Proof.KernelRun.lean ====
/-
  The idealized kernel's run with its RESULT named.  @main is seven segments: four stretches of host operations and
  three pallas_call regions between them.  The buffer contents at the segment boundaries are a fold from the launch
  memory (W0 … W7): a host stretch applies its operations, a region replaces its arrays by what its write-backs leave.
  Every weakly fair execution terminates with each unscoped buffer at the last boundary's contents; read at the result
  buffer this names the result, and read at the argument buffers it says the arguments are unchanged.
-/
import proofs.«171249_j2396591751509_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the five argument arrays as launched. -/
theorem run : θ_run defs (onTc (τ := τ) (main (F := F))) ⟨m, fun _ => 0, ρ⟩ (fun r => ∀ c : Dev nD,
      r.2.mem ((c.tc : Thread nD τ).loc main_v44) = W7 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v44 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Whole

end
-- ==== Proof.HostSide.lean ====
/-
  The host operations of the idealized kernel's @main, read as functions.  Before the first region the host builds, from
  the edge list, the source index vector (row 0 of the list followed by 0 … 99999, the self loops), the target index vector
  (row 1 followed by the self loops), the in-degree of every node as a scatter-add of ones, its reciprocal square root, and
  the edge weight: the product of the two endpoints' reciprocal roots, each gathered at the index wrapped into range.
  Between the regions it gathers the transformed features at the wrapped source indices and scatter-adds the weighted
  features at the target indices; after the last region it scatter-adds the rectified node features by graph id.
  Each boundary's contents are named here as these functions of the earlier boundary's contents.
-/
import proofs.«171249_j2396591751509_1_alg».proof.Proof.Gen.KernelIdeal.Frame
import Idealize.ShloMosaic.Lib.StableHlo.Run
import Idealize.ShloMosaic.PureOps.Ideal

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

/-- The edge list's row `r` followed by the self loops 0 … 99999. -/
def endpoints (off : Fin 2 → Nat) (h : S2x1200000.Slices off S1x1200000)
    (ei : IVec S2x1200000 32) : IVec S1300000 32 :=
  concatenate S1300000 0 [⟨S1200000, shapeCast S1200000 (extractStridedSlice S1x1200000 off ei h) shapeCasts_S1x1200000_S1200000⟩, ⟨S100000, iotaInDim S100000 32 0⟩] concatenates_S1200000_S100000_S1300000_d0

/-- Source nodes. -/
def src (ei : IVec S2x1200000 32) : IVec S1300000 32 :=
  endpoints ![0, 0] slices_S2x1200000_S1x1200000_0_0 ei
/-- Target nodes. -/
def dst (ei : IVec S2x1200000 32) : IVec S1300000 32 :=
  endpoints ![1, 0] slices_S2x1200000_S1x1200000_1_0 ei

/-- A negative index counts from the end: add the node count to it. -/
def wrap (v : IVec S1300000 32) : IVec S1300000 32 :=
  select (cmpi .slt v (broadcastInDim S1300000 ![] bcast_S_S1300000 (constantI S_ 32 0#32)))
    (addi v (broadcastInDim S1300000 ![] bcast_S_S1300000 (constantI S_ 32 100000#32))) v

/-- The reciprocal square root of every node's in-degree (self loop included). -/
def invRootDeg (ei : IVec S2x1200000 32) : FVec Ideal S100000 .f32 :=
  Host.rsqrt (F := Ideal) (Host.scatterAdd (F := Ideal) scatter_S100000_S1300000x1_S1300000_n_0_0_1
    (broadcastInDim S100000 ![] bcast_S_S100000 (constant (F := Ideal) S_ .f32 0x00000000#32))
    (broadcastInDim S1300000x1 ![0] bcast_S1300000_S1300000x1_0 (dst ei))
    (broadcastInDim S1300000 ![] bcast_S_S1300000 (constant (F := Ideal) S_ .f32 0x3F800000#32)))

/-- The symmetric normalization weight of every edge. -/
def weight (ei : IVec S2x1200000 32) : FVec Ideal S1300000 .f32 :=
  mulf (F := Ideal) (Host.gather gather_S100000_S1300000x1_S1300000_n_0_n_n_0_1_1 (invRootDeg ei) (broadcastInDim S1300000x1 ![0] bcast_S1300000_S1300000x1_0 (wrap (src ei))))
    (Host.gather gather_S100000_S1300000x1_S1300000_n_0_n_n_0_1_1 (invRootDeg ei) (broadcastInDim S1300000x1 ![0] bcast_S1300000_S1300000x1_0 (wrap (dst ei))))

/-- The features of every edge's source node. -/
def gathered (h : FVec Ideal S100000x64 .f32) (s : IVec S1300000 32) :
    FVec Ideal S1300000x64 .f32 :=
  Host.gather gather_S100000x64_S1300000x1_S1300000x64_1_0_n_n_0_1_164 h (broadcastInDim S1300000x1 ![0] bcast_S1300000_S1300000x1_0 (wrap s))

/-- The messages summed into their target nodes. -/
def aggregated (d : IVec S1300000 32) (msg : FVec Ideal S1300000x64 .f32) :
    FVec Ideal S100000x64 .f32 :=
  Host.scatterAdd (F := Ideal) scatter_S100000x64_S1300000x1_S1300000x64_1_0_0_1
    (broadcastInDim S100000x64 ![] bcast_S_S100000x64 (constant (F := Ideal) S_ .f32 0x00000000#32))
    (broadcastInDim S1300000x1 ![0] bcast_S1300000_S1300000x1_0 d) msg

/-- The node features summed per graph. -/
def pooled (bt : IVec S100000 32) (act : FVec Ideal S100000x64 .f32) :
    FVec Ideal S256x64 .f32 :=
  Host.scatterAdd (F := Ideal) scatter_S256x64_S100000x1_S100000x64_1_0_0_1
    (broadcastInDim S256x64 ![] bcast_S_S256x64 (constant (F := Ideal) S_ .f32 0x00000000#32))
    (broadcastInDim S100000x1 ![0] bcast_S100000_S100000x1_0 bt) act

/-- The edge weights as a column, the form the second region's window stages. -/
def column (n : FVec Ideal S1300000 .f32) : FVec Ideal S1300000x1 .f32 := shapeCast S1300000x1 n shapeCasts_S1300000_S1300000x1

/-- The bias as a one-row matrix, the form the third region's window stages. -/
def biasRow (b : FVec Ideal S64 .f32) : FVec Ideal S1x64 .f32 := shapeCast S1x64 b shapeCasts_S64_S1x64

variable (m : (ℓ : Loc nD τ sig) → Buf (Elt Ideal) ℓ) (ρ : Dev nD → PrngReg) (c : Dev nD)

/-! ## Before the first region -/

theorem W1_v3 : W1 m ρ c (Proc.devRef .tc main_v3) = src (m ((c : Thread nD τ).loc main_arg1)) := by
  show StableHlo.after hostOps0 (W0 m ρ c) (Proc.devRef .tc main_v3) = _
  after_results_simp <;> rfl
theorem W1_v6 : W1 m ρ c (Proc.devRef .tc main_v6) = dst (m ((c : Thread nD τ).loc main_arg1)) := by
  show StableHlo.after hostOps0 (W0 m ρ c) (Proc.devRef .tc main_v6) = _
  after_results_simp <;> rfl
set_option maxHeartbeats 1000000 in
theorem W1_v26 : W1 m ρ c (Proc.devRef .tc main_v26) = weight (m ((c : Thread nD τ).loc main_arg1)) := by
  show StableHlo.after hostOps0 (W0 m ρ c) (Proc.devRef .tc main_v26) = _
  after_results_simp <;> rfl
theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg3 : W1 m ρ c (Proc.devRef .tc main_arg3) = m ((c : Thread nD τ).loc main_arg3) := by
  show StableHlo.after hostOps0 (W0 m ρ c) (Proc.devRef .tc main_arg3) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl

/-! ## The later stretches, from any contents `Wv` -/

variable (Wv : Valuation τ sig (Elt Ideal))

theorem host1_v34 : StableHlo.after hostOps1 Wv (Proc.devRef .tc main_v34)
    = gathered (Wv (Proc.devRef .tc main_v27)) (Wv (Proc.devRef .tc main_v3)) := by
  after_results_simp <;> rfl
theorem host1_v35 : StableHlo.after hostOps1 Wv (Proc.devRef .tc main_v35) = column (Wv (Proc.devRef .tc main_v26)) := by
  after_results_simp <;> rfl
theorem host1_v6 : StableHlo.after hostOps1 Wv (Proc.devRef .tc main_v6) = Wv (Proc.devRef .tc main_v6) := by
  after_results_simp <;> rfl
theorem host1_arg4 : StableHlo.after hostOps1 Wv (Proc.devRef .tc main_arg4) = Wv (Proc.devRef .tc main_arg4) := by
  after_results_simp <;> rfl

theorem host2_v39 : StableHlo.after hostOps2 Wv (Proc.devRef .tc main_v39)
    = aggregated (Wv (Proc.devRef .tc main_v6)) (Wv (Proc.devRef .tc main_v36)) := by
  after_results_simp <;> rfl
theorem host2_v40 : StableHlo.after hostOps2 Wv (Proc.devRef .tc main_v40) = biasRow (Wv (Proc.devRef .tc main_arg4)) := by
  after_results_simp <;> rfl

theorem host3_v44 : StableHlo.after hostOps3 Wv (Proc.devRef .tc main_v44)
    = pooled (Wv (Proc.devRef .tc main_arg2)) (Wv (Proc.devRef .tc main_v41)) := by
  after_results_simp <;> rfl
theorem host3_arg2 : StableHlo.after hostOps3 Wv (Proc.devRef .tc main_arg2) = Wv (Proc.devRef .tc main_arg2) := by
  after_results_simp <;> rfl

end Cert.KernelIdeal.Host

end
-- ==== Proof.Linear.lean ====
/-
  The first region (the linear transform) as ONE whole-array function.  Its grid has 20 points; point t stages rows
  5000·t … 5000·t + 4999 of x (100000 × 64) and, once, the whole of W (64 × 64); it multiplies the row block by W on the
  matrix unit into a zero accumulator and writes the product rows back.  On the extended reals the change of float format
  on the way in is the identity and the matrix product is the plain sum over the contracted axis, so a row block of the
  product is the product of the row block: after the region the output array is  i ↦ ∑ₖ x (i₀, k) · W (k, i₁).
-/
import proofs.«171249_j2396591751509_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

theorem zeros2 : (![0, 0] : Fin 2 → Nat) = fun _ => 0 := funext fun a => by fin_cases a <;> rfl

/-- Entry `(i₀, k)` of the left factor and entry `(k, i₁)` of the right factor, for an output index `i`. -/
abbrev lrow (i : S100000x64.Idx) (k : Fin 64) : S100000x64.Idx := fun a => match a with
  | ⟨0, _⟩ => ⟨(i 0).val, (i 0).isLt⟩
  | ⟨1, _⟩ => ⟨k.val, k.isLt⟩
abbrev rcol (i : S100000x64.Idx) (k : Fin 64) : S64x64.Idx := fun a => match a with
  | ⟨0, _⟩ => ⟨k.val, k.isLt⟩
  | ⟨1, _⟩ => ⟨(i 1).val, (i 1).isLt⟩

/-- The matrix product as a function of the two arrays, index by index. -/
def product (x : S100000x64.Idx → EReal) (w : S64x64.Idx → EReal) : S100000x64.Idx → EReal :=
  fun i => ∑ k : Fin 64, x (lrow i k) * w (rcol i k)

/-- The same two entries inside a row block. -/
abbrev lblk (y : S5000x64.Idx) (k : Fin 64) : S5000x64.Idx := fun a => match a with
  | ⟨0, _⟩ => ⟨(y 0).val, (y 0).isLt⟩
  | ⟨1, _⟩ => ⟨k.val, k.isLt⟩
abbrev rblk (y : S5000x64.Idx) (k : Fin 64) : S64x64.Idx := fun a => match a with
  | ⟨0, _⟩ => ⟨k.val, k.isLt⟩
  | ⟨1, _⟩ => ⟨(y 1).val, (y 1).isLt⟩

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's arithmetic at an entry of a block: the sum over the contracted axis of row entry times column entry. -/
theorem pay_apply (x0 : Vec Ideal S5000x64 .f32) (x1 : Vec Ideal S64x64 .f32) (i : S5000x64.Idx) :
    k0_pay1 x0 x1 i = ∑ k : Fin 64, x0 (lblk i k) * x1 (rblk i k) := by
  unfold k0_pay1
  refine (Ideal.matmul_constant_zero_apply dot_S5000x64_S64x64_S5000x64_1_0_0_1_n_n none _ _ i).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = lblk i k := funext fun a => Fin.ext (by
    match a with
    | ⟨0, _⟩ => exact lhs_0 _ _
    | ⟨1, _⟩ => exact (lhs_1 _ _).trans hk)
  have er : dot_S5000x64_S64x64_S5000x64_1_0_0_1_n_n.rhsIdx i ((ValueIdx.contrEquiv1 dot_S5000x64_S64x64_S5000x64_1_0_0_1_n_n 64 rfl rfl).symm k) = rblk i k := funext fun a => Fin.ext (by
    match a with
    | ⟨0, _⟩ => exact (rhs_0 _ _).trans hk
    | ⟨1, _⟩ => exact rhs_1 _ _)
  rw [truncf_apply, truncf_apply, el, er]

theorem pay_eq (x0 : Vec Ideal S5000x64 .f32) (x1 : Vec Ideal S64x64 .f32) :
    k0_pay1 x0 x1 = fun y => ∑ k : Fin 64, x0 (lblk y k) * x1 (rblk y k) :=
  funext fun y => pay_apply x0 x1 y

/-- The printed index maps over the 20 points: the row windows sit at row block t, the weight window stays put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `product` of the arrays the region found. -/
theorem flushed_eq (c : Dev nD) (t : Fin cfg0.N) :
    (dat0 V c).flushed 2 t = ((cfg0.win 2).blk t).view.read (Elt Ideal) (product (V c main_arg0) (V c main_arg3)) := by
  show (cfg0.win 2).cut (grid0.coords t) ((dat0 V c).after 2 t) = _
  rw [after0_2]
  unfold out0_2
  rw [View.canon_unit_zero zeros2]
  simp only [View.ld_unit_zero (S := S5000x64) zeros2, View.ld_unit_zero (S := S64x64) zeros2]
  rw [pay_eq]
  obtain ⟨e0, e1, e2, e3, e4, e5⟩ := idx_facts t
  funext j
  have hj0 : (j 0).val < 5000 := (j 0).isLt
  have hj1 : (j 1).val < 64 := (j 1).isLt
  have h0 : ∀ k : Fin 64, ((cfg0.win 0).blk t).view.emb (lblk j k) = lrow (((cfg0.win 2).blk t).view.emb j) k := fun k => by
    have hk : k.val < 64 := k.isLt
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have h1 : ∀ k : Fin 64, ((cfg0.win 1).blk t).view.emb (rblk j k) = rcol (((cfg0.win 2).blk t).view.emb j) k := fun k => by
    have hk : k.val < 64 := k.isLt
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  have key : ∀ (x : S100000x64.Idx → EReal) (w : S64x64.Idx → EReal),
      (∑ k : Fin 64, x (((cfg0.win 0).blk t).view.emb (lblk j k)) * w (((cfg0.win 1).blk t).view.emb (rblk j k)))
        = ∑ k : Fin 64, x (lrow (((cfg0.win 2).blk t).view.emb j) k) * w (rcol (((cfg0.win 2).blk t).view.emb j) k) :=
    fun x w => Finset.sum_congr rfl fun k _ => by rw [h0 k, h1 k]
  exact key (V c main_arg0) (V c main_arg3)

/-- An index of the array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- Every row of the output lies in the block of the point numbered by its row block. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output array is `product` of the two input arrays as the region found them. -/
theorem final (c : Dev nD) : (dat0 V c).arrAt 2 cfg0.N = product (V c main_arg0) (V c main_arg3) :=
  (dat0 V c).arrAt_eq_of_cover 2 _ (fun t _ => flushed_eq V c t) cover

end Cert.KernelIdeal.Linear

end
-- ==== Proof.EdgeScale.lean ====
/-
  The second region (the edge-weight scaling) as ONE whole-array function.  Its grid has 130 points; point t stages rows
  10000·t … 10000·t + 9999 of the gathered features g (1300000 × 64) and of the weight column n (1300000 × 1), multiplies
  each feature row by its weight, and writes the product back to the same rows of the output.  The row blocks tile the
  output, so after the region the output array is  i ↦ g i · n (i₀, 0)  of the arrays the region found.
-/
import proofs.«171249_j2396591751509_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeScale

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- A column `[a, 1]` broadcast to `[a, b]` reads, at `(p, q)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The output as one function of the two input arrays: each feature times its row's weight. -/
def scaled (g : S1300000x64.Idx → EReal) (n : S1300000x1.Idx → EReal) : S1300000x64.Idx → EReal :=
  fun i => g i * n (ix2 (⟨(i 0).val, idx2_lt0 i⟩ : Fin 1300000) (0 : Fin 1))

/-- The body's arithmetic at an entry of a block: the feature times the weight of its row. -/
theorem pay_apply (x0 : Vec Ideal S10000x64 .f32) (x1 : Vec Ideal S10000x1 .f32) (p : Fin 10000) (q : Fin 64) :
    k1_pay1 x0 x1 (ix2 p q) = x0 (ix2 p q) * x1 (ix2 p (0 : Fin 1)) := by
  unfold k1_pay1
  rw [mulf_apply, shapeCast_self, shapeCast_self, broadcastTo_a1_ab_apply]

theorem pay_eq (x0 : Vec Ideal S10000x64 .f32) (x1 : Vec Ideal S10000x1 .f32) :
    k1_pay1 x0 x1 = fun y => x0 y * x1 (ix2 (⟨(y 0).val, idx2_lt0 y⟩ : Fin 10000) (0 : Fin 1)) := by
  funext y
  obtain ⟨p, q, rfl⟩ : ∃ (p : Fin 10000) (q : Fin 64), y = ix2 p q := ⟨y 0, y 1, eq_ix2 y⟩
  exact pay_apply x0 x1 p q

/-- The printed index maps over the 130 points: all three windows move together, block t at row block t. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of `scaled` of the arrays the region found. -/
theorem flushed_eq (c : Dev nD) (t : Fin cfg1.N) :
    (dat1 V c).flushed 2 t = ((cfg1.win 2).blk t).view.read (Elt Ideal) (scaled (V c main_v34) (V c main_v35)) := by
  show (cfg1.win 2).cut (grid1.coords t) ((dat1 V c).after 2 t) = _
  rw [after1_2]
  unfold out1_2
  rw [View.canon_unit_zero zeros2]
  simp only [View.ld_unit_zero (S := S10000x64) zeros2, View.ld_unit_zero (S := S10000x1) zeros2]
  rw [pay_eq]
  obtain ⟨e0, e1, e2, e3, e4, e5⟩ := idx_facts t
  funext j
  have hj0 : (j 0).val < 10000 := (j 0).isLt
  have hj1 : (j 1).val < 64 := (j 1).isLt
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (⟨(j 0).val, hj0⟩ : Fin 10000) (0 : Fin 1))
      = ix2 (⟨((((cfg1.win 2).blk t).view.emb j) 0).val, idx2_lt0 _⟩ : Fin 1300000) (0 : Fin 1) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  have key : ∀ (g : S1300000x64.Idx → EReal) (n : S1300000x1.Idx → EReal),
      g (((cfg1.win 0).blk t).view.emb j) * n (((cfg1.win 1).blk t).view.emb (ix2 (⟨(j 0).val, hj0⟩ : Fin 10000) (0 : Fin 1)))
        = g (((cfg1.win 2).blk t).view.emb j) * n (ix2 (⟨((((cfg1.win 2).blk t).view.emb j) 0).val, idx2_lt0 _⟩ : Fin 1300000) (0 : Fin 1)) :=
    fun g n => by rw [h0, h1]
  exact key (V c main_v34) (V c main_v35)

/-- An index of the array is in point t's block iff each coordinate is in the block's range on its axis. -/
theorem mem_blk (t : Fin cfg1.N) (i : S1300000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v36).slice (win1_2.rect t)).set ↔ _
  rw [View.set_slice_whole, Rect.mem_set_unit]
  exact Iff.rfl

/-- Every row of the output lies in the block of the point numbered by its row block. -/
theorem cover (i : S1300000x64.Idx) : ∃ t : Fin cfg1.N, (cfg1.win 2).flush t = true ∧ i ∈ ((cfg1.win 2).blk t).view.set := by
  have hi0 : (i 0).val < 1300000 := (i 0).isLt
  have hi1 : (i 1).val < 64 := (i 1).isLt
  have hN : cfg1.N = 130 := N_1
  let t : Fin cfg1.N := ⟨(i 0).val / 10000, by rw [hN]; omega⟩
  obtain ⟨-, -, -, -, e4, e5⟩ := idx_facts t
  have e4' : win1_2.index t (0 : Fin 2) = (i 0).val / 10000 := e4
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region the output array is `scaled` of the two input arrays as the region found them. -/
theorem final (c : Dev nD) : (dat1 V c).arrAt 2 cfg1.N = scaled (V c main_v34) (V c main_v35) :=
  (dat1 V c).arrAt_eq_of_cover 2 _ (fun t _ => flushed_eq V c t) cover

end Cert.KernelIdeal.EdgeScale

end
-- ==== Proof.BiasRelu.lean ====
/-
  The third region (bias and rectifier) as ONE whole-array function.  Its grid has 20 points; point t stages rows
  5000·t … 5000·t + 4999 of the aggregated features a (100000 × 64) and, once, the bias row b (1 × 64); it adds the bias to
  every row, takes the maximum with zero, and writes the rows back.  The row blocks tile the output, so after the region
  the output array is  i ↦ max (a i + b (0, i₁)) 0  of the arrays the region found.
-/
import proofs.«171249_j2396591751509_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasRelu

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The output as one function of the two input arrays: the entry plus its column's bias, cut off below at zero. -/
def rectified (a : S100000x64.Idx → EReal) (b : S1x64.Idx → EReal) : S100000x64.Idx → EReal :=
  fun i => max (a i + b (ix2 (0 : Fin 1) (⟨(i 1).val, idx2_lt1 i⟩ : Fin 64))) (Ideal.ofBits .f32 0x00000000#32)

/-- The body's arithmetic at an entry of a block. -/
theorem pay_apply (x0 : Vec Ideal S5000x64 .f32) (x1 : Vec Ideal S1x64 .f32) (p : Fin 5000) (q : Fin 64) :
    k2_pay1 x0 x1 (ix2 p q) = max (x0 (ix2 p q) + x1 (ix2 (0 : Fin 1) q)) (Ideal.ofBits .f32 0x00000000#32) := by
  unfold k2_pay1
  rw [maximumf_apply, addf_apply, shapeCast_self, shapeCast_self, broadcastTo_1b_ab_apply]
  rfl

theorem pay_eq (x0 : Vec Ideal S5000x64 .f32) (x1 : Vec Ideal S1x64 .f32) :
    k2_pay1 x0 x1 = fun y => max (x0 y + x1 (ix2 (0 : Fin 1) (⟨(y 1).val, idx2_lt1 y⟩ : Fin 64))) (Ideal.ofBits .f32 0x00000000#32) := by
  funext y
  obtain ⟨p, q, rfl⟩ : ∃ (p : Fin 5000) (q : Fin 64), y = ix2 p q := ⟨y 0, y 1, eq_ix2 y⟩
  exact pay_apply x0 x1 p q

/-- The printed index maps over the 20 points: the row windows sit at row block t, the bias window stays put. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of `rectified` of the arrays the region found. -/
theorem flushed_eq (c : Dev nD) (t : Fin cfg2.N) :
    (dat2 V c).flushed 2 t = ((cfg2.win 2).blk t).view.read (Elt Ideal) (rectified (V c main_v39) (V c main_v40)) := by
  show (cfg2.win 2).cut (grid2.coords t) ((dat2 V c).after 2 t) = _
  rw [after2_2]
  unfold out2_2
  rw [View.canon_unit_zero zeros2]
  simp only [View.ld_unit_zero (S := S5000x64) zeros2, View.ld_unit_zero (S := S1x64) zeros2]
  rw [pay_eq]
  obtain ⟨e0, e1, e2, e3, e4, e5⟩ := idx_facts t
  funext j
  have hj0 : (j 0).val < 5000 := (j 0).isLt
  have hj1 : (j 1).val < 64 := (j 1).isLt
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (0 : Fin 1) (⟨(j 1).val, hj1⟩ : Fin 64))
      = ix2 (0 : Fin 1) (⟨((((cfg2.win 2).blk t).view.emb j) 1).val, idx2_lt1 _⟩ : Fin 64) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega
  have key : ∀ (a : S100000x64.Idx → EReal) (b : S1x64.Idx → EReal),
      max (a (((cfg2.win 0).blk t).view.emb j) + b (((cfg2.win 1).blk t).view.emb (ix2 (0 : Fin 1) (⟨(j 1).val, hj1⟩ : Fin 64)))) (Ideal.ofBits .f32 0x00000000#32)
        = max (a (((cfg2.win 2).blk t).view.emb j) + b (ix2 (0 : Fin 1) (⟨((((cfg2.win 2).blk t).view.emb j) 1).val, idx2_lt1 _⟩ : Fin 64))) (Ideal.ofBits .f32 0x00000000#32) :=
    fun a b => by rw [h0, h1]
  exact key (V c main_v39) (V c main_v40)

/-- An index of the array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v41).slice (win2_2.rect t)).set ↔ _
  rw [View.set_slice_whole, Rect.mem_set_unit]
  exact Iff.rfl

/-- Every row of the output lies in the block of the point numbered by its row block. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨-, -, -, -, e4, e5⟩ := idx_facts t
  have e4' : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the output array is `rectified` of the two input arrays as the region found them. -/
theorem final (c : Dev nD) : (dat2 V c).arrAt 2 cfg2.N = rectified (V c main_v39) (V c main_v40) :=
  (dat2 V c).arrAt_eq_of_cover 2 _ (fun t _ => flushed_eq V c t) cover

end Cert.KernelIdeal.BiasRelu

end
-- ==== Proof.KernelValue.lean ====
/-
  The idealized kernel's result as ONE function of its five arguments: the three regions' whole-array functions (the matrix
  product, the row scaling, the bias and rectifier) composed with the host's gathers and scatter-adds between them.
  The last boundary's contents at the result buffer are read back boundary by boundary: a region's output array is its
  whole-array function of the arrays the region found, a host stretch's result is its operations' value of the contents it
  found, and every buffer a segment does not write is carried through unchanged.
-/
import proofs.«171249_j2396591751509_1_alg».proof.Proof.HostSide
import proofs.«171249_j2396591751509_1_alg».proof.Proof.Linear
import proofs.«171249_j2396591751509_1_alg».proof.Proof.EdgeScale
import proofs.«171249_j2396591751509_1_alg».proof.Proof.BiasRelu

set_option maxRecDepth 16384

noncomputable section

namespace Cert.KernelIdeal.Result

open Cert.KernelIdeal Cert.KernelIdeal.Gen Idealize.ShloMosaic Idealize.ShloMosaic.TcCoe Idealize.SL.Sem

/-- Graph-wise sums of the rectified, biased aggregate of the weighted, gathered, linearly transformed node features. -/
def value (x : FVec Ideal S100000x64 .f32) (ei : IVec S2x1200000 32) (bt : IVec S100000 32) (w : FVec Ideal S64x64 .f32)
    (b : FVec Ideal S64 .f32) : FVec Ideal S256x64 .f32 :=
  Host.pooled bt (BiasRelu.rectified
    (Host.aggregated (Host.dst ei) (EdgeScale.scaled (Host.gathered (Linear.product x w) (Host.src ei)) (Host.column (Host.weight ei))))
    (Host.biasRow b))

variable (m : (ℓ : Loc nD τ sig) → Buf (Elt Ideal) ℓ) (ρ : Dev nD → PrngReg) (c : Dev nD)

/-! ## After the first region -/

theorem W2_v27 : W2 m ρ c (Proc.devRef .tc main_v27)
    = Linear.product (m ((c : Thread nD τ).loc main_arg0)) (m ((c : Thread nD τ).loc main_arg3)) :=
  (W2_arr m ρ c 2).trans ((Linear.final (V1 m ρ) c).trans (congrArg₂ Linear.product (Host.W1_arg0 m ρ c) (Host.W1_arg3 m ρ c)))
theorem W2_v3 : W2 m ρ c (Proc.devRef .tc main_v3) = Host.src (m ((c : Thread nD τ).loc main_arg1)) :=
  (W2_of_ne m ρ c main_v3 (by decide)).trans (Host.W1_v3 m ρ c)
theorem W2_v6 : W2 m ρ c (Proc.devRef .tc main_v6) = Host.dst (m ((c : Thread nD τ).loc main_arg1)) :=
  (W2_of_ne m ρ c main_v6 (by decide)).trans (Host.W1_v6 m ρ c)
theorem W2_v26 : W2 m ρ c (Proc.devRef .tc main_v26) = Host.weight (m ((c : Thread nD τ).loc main_arg1)) :=
  (W2_of_ne m ρ c main_v26 (by decide)).trans (Host.W1_v26 m ρ c)
theorem W2_arg4 : W2 m ρ c (Proc.devRef .tc main_arg4) = m ((c : Thread nD τ).loc main_arg4) :=
  (W2_of_ne m ρ c main_arg4 (by decide)).trans (Host.W1_arg4 m ρ c)

/-! ## After the second region -/

theorem W4_v36 : W4 m ρ c (Proc.devRef .tc main_v36)
    = EdgeScale.scaled (Host.gathered (Linear.product (m ((c : Thread nD τ).loc main_arg0)) (m ((c : Thread nD τ).loc main_arg3))) (Host.src (m ((c : Thread nD τ).loc main_arg1))))
        (Host.column (Host.weight (m ((c : Thread nD τ).loc main_arg1)))) :=
  (W4_arr m ρ c 2).trans ((EdgeScale.final (V3 m ρ) c).trans (congrArg₂ EdgeScale.scaled
    ((Host.host1_v34 (W2 m ρ c)).trans (congrArg₂ Host.gathered (W2_v27 m ρ c) (W2_v3 m ρ c)))
    ((Host.host1_v35 (W2 m ρ c)).trans (congrArg Host.column (W2_v26 m ρ c)))))
theorem W4_v6 : W4 m ρ c (Proc.devRef .tc main_v6) = Host.dst (m ((c : Thread nD τ).loc main_arg1)) :=
  (W4_of_ne m ρ c main_v6 (by decide)).trans ((Host.host1_v6 (W2 m ρ c)).trans (W2_v6 m ρ c))
theorem W4_arg4 : W4 m ρ c (Proc.devRef .tc main_arg4) = m ((c : Thread nD τ).loc main_arg4) :=
  (W4_of_ne m ρ c main_arg4 (by decide)).trans ((Host.host1_arg4 (W2 m ρ c)).trans (W2_arg4 m ρ c))

/-! ## After the third region -/

theorem W6_v41 : W6 m ρ c (Proc.devRef .tc main_v41)
    = BiasRelu.rectified (Host.aggregated (Host.dst (m ((c : Thread nD τ).loc main_arg1)))
        (EdgeScale.scaled (Host.gathered (Linear.product (m ((c : Thread nD τ).loc main_arg0)) (m ((c : Thread nD τ).loc main_arg3))) (Host.src (m ((c : Thread nD τ).loc main_arg1))))
          (Host.column (Host.weight (m ((c : Thread nD τ).loc main_arg1))))))
        (Host.biasRow (m ((c : Thread nD τ).loc main_arg4))) :=
  (W6_arr m ρ c 2).trans ((BiasRelu.final (V5 m ρ) c).trans (congrArg₂ BiasRelu.rectified
    ((Host.host2_v39 (W4 m ρ c)).trans (congrArg₂ Host.aggregated (W4_v6 m ρ c) (W4_v36 m ρ c)))
    ((Host.host2_v40 (W4 m ρ c)).trans (congrArg Host.biasRow (W4_arg4 m ρ c)))))
theorem W6_arg2 : W6 m ρ c (Proc.devRef .tc main_arg2) = m ((c : Thread nD τ).loc main_arg2) :=
  (Host.host3_arg2 (W6 m ρ c)).symm.trans (W7_main_arg2 m ρ c)

/-- The result buffer's last contents are `value` of the five arguments as launched. -/
theorem W7_v44 : W7 m ρ c (Proc.devRef .tc main_v44)
    = value (m ((c : Thread nD τ).loc main_arg0)) (m ((c : Thread nD τ).loc main_arg1)) (m ((c : Thread nD τ).loc main_arg2))
        (m ((c : Thread nD τ).loc main_arg3)) (m ((c : Thread nD τ).loc main_arg4)) :=
  (Host.host3_v44 (W6 m ρ c)).trans (congrArg₂ Host.pooled (W6_arg2 m ρ c) (W6_v41 m ρ c))

end Cert.KernelIdeal.Result

end
-- ==== Proof.RefValue.lean ====
/-
  The idealized reference computes the same function as the idealized kernel.  The reference's result is its operations'
  composed term; that term differs from the kernel's function in three places only, and on the extended reals each is
  the same function:  the host's dot_general is the plain sum over the contracted axis, which is the matrix product the
  first region leaves;  the weight broadcast along the feature axis times the gathered feature is, by commutativity of the
  product, the gathered feature times its row's weight, which the second region leaves;  the aggregate plus the bias
  broadcast along the rows, maximized with the zero splat, is entry by entry what the third region leaves.  Everything
  else — index vectors, degrees, weights, the gather and the two scatter-adds — is the same operations on both sides.
-/
import proofs.«171249_j2396591751509_1_alg».proof.Proof.Gen.ReferenceIdeal.Run
import proofs.«171249_j2396591751509_1_alg».proof.Proof.Gen.ReferenceIdeal.Read
import proofs.«171249_j2396591751509_1_alg».proof.Proof.KernelValue
import Idealize.ShloMosaic.Lib.Pipeline.Value
import Idealize.ShloMosaic.Lib.ValueIdx
import Idealize.ShloMosaic.Lib.ValueLayout

set_option maxRecDepth 16384

noncomputable section

namespace Cert.ReferenceIdeal.AsKernel

open Cert.ReferenceIdeal Cert.ReferenceIdeal.Gen Idealize.ShloMosaic Idealize.ShloMosaic.TcCoe Idealize.SL.Sem
open Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The host's dot_general of the whole arrays is the matrix product index by index. -/
theorem product_eq (x : FVec Ideal S100000x64 .f32) (w : FVec Ideal S64x64 .f32) :
    Host.dotGeneral dot_S100000x64_S64x64_S100000x64_1_0_0_1_n_n none x w = Cert.KernelIdeal.Linear.product x w := by
  funext i
  exact Cert.ReferenceIdeal.Read.val_main_v27_apply x w i

/-- Weight times feature is feature times weight. -/
theorem scaled_eq (n : FVec Ideal S1300000 .f32) (g : FVec Ideal S1300000x64 .f32) :
    mulf (broadcastInDim S1300000x64 ![0, 1] bcast_S1300000x1_S1300000x64_0_1 (broadcastInDim S1300000x1 ![0] bcast_S1300000_S1300000x1_0 n)) g
      = Cert.KernelIdeal.EdgeScale.scaled g (Cert.KernelIdeal.Host.column n) := by
  funext i
  obtain ⟨p, q, rfl⟩ : ∃ (p : Fin 1300000) (q : Fin 64), i = ix2 p q := ⟨i 0, i 1, eq_ix2 i⟩
  rw [mulf_apply]
  rw [broadcastInDim_apply _ _ _ (ix2 p q) (ix2 p (0 : Fin 1)) (fun a => by match a with | ⟨0, _⟩ => rfl | ⟨1, _⟩ => rfl)]
  rw [broadcastInDim_apply _ _ _ (ix2 p (0 : Fin 1)) (ix1 p) (fun a => by match a with | ⟨0, _⟩ => rfl)]
  unfold Cert.KernelIdeal.EdgeScale.scaled Cert.KernelIdeal.Host.column
  rw [shapeCast_a_a1_apply]
  exact mul_comm _ _

/-- The aggregate plus the bias of its column, cut off below at zero. -/
theorem rectified_eq (a : FVec Ideal S100000x64 .f32) (b : FVec Ideal S64 .f32) :
    maximumf (addf a (broadcastInDim S100000x64 ![0, 1] bcast_S1x64_S100000x64_0_1 (broadcastInDim S1x64 ![1] bcast_S64_S1x64_1 b)))
        (broadcastInDim S100000x64 ![] bcast_S_S100000x64 (constant S_ .f32 0x00000000#32))
      = Cert.KernelIdeal.BiasRelu.rectified a (Cert.KernelIdeal.Host.biasRow b) := by
  funext i
  obtain ⟨p, q, rfl⟩ : ∃ (p : Fin 100000) (q : Fin 64), i = ix2 p q := ⟨i 0, i 1, eq_ix2 i⟩
  rw [maximumf_apply, addf_apply]
  rw [broadcastInDim_apply _ _ _ (ix2 p q) (ix2 (0 : Fin 1) q) (fun a => by match a with | ⟨0, _⟩ => rfl | ⟨1, _⟩ => rfl)]
  rw [broadcastInDim_apply _ _ _ (ix2 (0 : Fin 1) q) (ix1 q) (fun a => by match a with | ⟨0, _⟩ => rfl)]
  rw [broadcastInDim_apply _ _ _ (ix2 p q) ix0 (fun a => a.elim0)]
  unfold Cert.KernelIdeal.BiasRelu.rectified Cert.KernelIdeal.Host.biasRow
  rw [shapeCast_a_1a_apply]
  rfl

/-- The reference's composed term is the kernel's function of the reference's arguments. -/
theorem result_eq (m' : (ℓ : Loc nD τ sig) → Buf (Elt Ideal) ℓ) (c : Dev nD) :
    Cert.ReferenceIdeal.Value.res_main_v47 m' c
      = Cert.KernelIdeal.Result.value (m' ((c.tc : Thread nD τ).loc main_arg0)) (m' ((c.tc : Thread nD τ).loc main_arg1))
          (m' ((c.tc : Thread nD τ).loc main_arg2)) (m' ((c.tc : Thread nD τ).loc main_arg3)) (m' ((c.tc : Thread nD τ).loc main_arg4)) := by
  unfold Cert.ReferenceIdeal.Value.res_main_v47
  rw [product_eq, scaled_eq, rectified_eq]
  rfl

end Cert.ReferenceIdeal.AsKernel

end
-- ==== Proof.lean ====
/-
  A graph-convolution encoder: h = x·W; every edge (and every node's self loop) carries the message h[source] scaled by the
  symmetric normalization weight deg(source)^(-1/2)·deg(target)^(-1/2); messages are summed into their targets, the bias is
  added, the result is cut off below at zero and summed per graph.  The kernel computes the matrix product, the scaling
  and the bias-and-rectifier in three tiled regions and leaves the index bookkeeping, the gather and the scatter-adds to
  the host; the reference computes everything on the host.

  The three frames: the two kernel programs' are the generated run of @main's seven segments; the reference's is its
  generated run with the result dropped.  The idealization rewrote no operation, so there is nothing to preserve.
  The value claim: the idealized kernel ends with its result at one function (`Result.value`) of the five arguments —
  each region's output array is one whole-array function of the arrays it found, because its row blocks tile the array,
  and the host stretches compose them —, and the reference's composed term is that same function: on the extended reals
  a change of float format is the identity, the tiled matrix product is the whole one, the product commutes, and the
  maximum with the zero splat is the rectifier.  No law used needs the inputs finite.
-/
import proofs.«171249_j2396591751509_1_alg».proof.Defs
import proofs.«171249_j2396591751509_1_alg».proof.Proof.Gen.Kernel.Frame
import proofs.«171249_j2396591751509_1_alg».proof.Proof.Gen.KernelIdeal.Frame
import proofs.«171249_j2396591751509_1_alg».proof.Proof.Gen.ReferenceIdeal.Run
import proofs.«171249_j2396591751509_1_alg».proof.Proof.Gen.Pre_finite_inputs
import proofs.«171249_j2396591751509_1_alg».proof.Proof.KernelRun
import proofs.«171249_j2396591751509_1_alg».proof.Proof.KernelValue
import proofs.«171249_j2396591751509_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result at `Result.value` of the (agreeing) arguments. -/
theorem algebraic : Cert.algebraic_KernelIdeal_ReferenceIdeal := by
  intro m ρ m' ρ' _ hagree
  refine ⟨fun c => Cert.KernelIdeal.Result.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Result.W7_v44 m ρ c), (h c).2⟩)
      (Cert.KernelIdeal.Whole.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.AsKernel.result_eq m' c, (hagree c).1, (hagree c).2.1, (hagree c).2.2.1, (hagree c).2.2.2.1,
      (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
